-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S512x2 : Shape := ⟨2, ![512, 2]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S100000x2 .f32) (main_arg1 : FVec F S512x2 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S512x2 .f32 := Host.absf main_arg1
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  main_v8
-- ==== Kernel.lean ====
abbrev S100000x2 : Shape := ⟨2, ![100000, 2]⟩
abbrev S512x2 : Shape := ⟨2, ![512, 2]⟩
abbrev S512x1 : Shape := ⟨2, ![512, 1]⟩
abbrev S512 : Shape := ⟨1, ![512]⟩
abbrev S1x512 : Shape := ⟨2, ![1, 512]⟩
abbrev S100000x512 : Shape := ⟨2, ![100000, 512]⟩
abbrev S2000x2 : Shape := ⟨2, ![2000, 2]⟩
abbrev S2000x512 : Shape := ⟨2, ![2000, 512]⟩
abbrev S2000x1 : Shape := ⟨2, ![2000, 1]⟩

abbrev nBuf : Space → Nat
  | .hbm => 9
  | .vmem => 6
  | .smem => 0
  | _ => 0

abbrev bufTy : (tb : Table) → Fin (tcTables nBuf tb) → BufTy
  | .hbm, ⟨0, _⟩ => ⟨S100000x2, .f32⟩
  | .hbm, ⟨1, _⟩ => ⟨S512x2, .f32⟩
  | .hbm, ⟨2, _⟩ => ⟨S512x1, .f32⟩
  | .hbm, ⟨3, _⟩ => ⟨S512, .f32⟩
  | .hbm, ⟨4, _⟩ => ⟨S1x512, .f32⟩
  | .hbm, ⟨5, _⟩ => ⟨S512x1, .f32⟩
  | .hbm, ⟨6, _⟩ => ⟨S512, .f32⟩
  | .hbm, ⟨7, _⟩ => ⟨S1x512, .f32⟩
  | .hbm, ⟨8, _⟩ => ⟨S100000x512, .f32⟩
  | .local _ .vmem, ⟨0, _⟩ => ⟨S2000x2, .f32⟩
  | .local _ .vmem, ⟨1, _⟩ => ⟨S2000x2, .f32⟩
  | .local _ .vmem, ⟨2, _⟩ => ⟨S1x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S512x2_S512x1_0_0 : S512x2.Slices ![0, 0] S512x1
  shapeCasts_S512x1_S512 : S512x1.ShapeCasts S512
  shapeCasts_S512_S1x512 : S512.ShapeCasts S1x512
  slices_S512x2_S512x1_0_1 : S512x2.Slices ![0, 1] S512x1
  inb_S2000x2_S2000x2_0_0 : ∀ a, (![0, 0] : Fin 2 → Nat) a + S2000x2.size a ≤ S2000x2.size a
  h_S2000x2 : 0 < S2000x2.numel
  slices_S2000x2_o0_0_S2000x1 : S2000x2.Slices ![0, 0] S2000x1
  slices_S2000x2_o0_1_S2000x1 : S2000x2.Slices ![0, 1] S2000x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2000x1_S2000x512 : S2000x1.Broadcasts S2000x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2.size a ≤ S100000x2.size a
  hwx0_0 : ∀ i : grid0.Coords, EltTy.bits .f32 = 32 ∨ (Rect.block (s := S100000x2) S2000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S100000x512.size a
  hwx0_3 : ∀ i : grid0.Coords, EltTy.bits .f32 = 32 ∨ (Rect.block (s := S100000x512) S2000x512.size (cc0_transform_3 i) (hinb0_3 i)).WholeWords (EltTy.packing .f32)

variable [Facts₀]

abbrev win0_0 : Pipeline.Window sig grid0 :=
  Pipeline.Window.ofSpec (Memref.whole main_arg0) S2000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x2 : Shape := ⟨2, ![100000, 2]⟩
abbrev S512x2 : Shape := ⟨2, ![512, 2]⟩
abbrev S100000x1 : Shape := ⟨2, ![100000, 1]⟩
abbrev S512x1 : Shape := ⟨2, ![512, 1]⟩
abbrev S512 : Shape := ⟨1, ![512]⟩
abbrev S1x512 : Shape := ⟨2, ![1, 512]⟩
abbrev S100000x512 : Shape := ⟨2, ![100000, 512]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S512x2, .f32⟩
  | .hbm, ⟨2, _⟩ => ⟨S100000x1, .f32⟩
  | .hbm, ⟨3, _⟩ => ⟨S100000x1, .f32⟩
  | .hbm, ⟨4, _⟩ => ⟨S512x1, .f32⟩
  | .hbm, ⟨5, _⟩ => ⟨S512, .f32⟩
  | .hbm, ⟨6, _⟩ => ⟨S1x512, .f32⟩
  | .hbm, ⟨7, _⟩ => ⟨S512x1, .f32⟩
  | .hbm, ⟨8, _⟩ => ⟨S512, .f32⟩
  | .hbm, ⟨9, _⟩ => ⟨S1x512, .f32⟩
  | .hbm, ⟨10, _⟩ => ⟨S100000x512, .f32⟩
  | .hbm, ⟨11, _⟩ => ⟨S100000x512, .f32⟩
  | .hbm, ⟨12, _⟩ => ⟨S100000x512, .f32⟩
  | .hbm, ⟨13, _⟩ => ⟨S100000x512, .f32⟩
  | .hbm, ⟨14, _⟩ => ⟨S100000x512, .f32⟩
  | .hbm, ⟨15, _⟩ => ⟨S100000x512, .f32⟩
  | .hbm, ⟨16, _⟩ => ⟨S100000x512, .f32⟩
  | .hbm, ⟨17, _⟩ => ⟨S100000x1, .f32⟩
  | .hbm, ⟨18, _⟩ => ⟨S1x512, .f32⟩
  | .hbm, ⟨19, _⟩ => ⟨S100000x512, .f32⟩
  | .hbm, ⟨20, _⟩ => ⟨S100000x512, .f32⟩
  | .hbm, ⟨21, _⟩ => ⟨S100000x512, .f32⟩
  | .hbm, ⟨22, _⟩ => ⟨S100000x512, .f32⟩
  | .hbm, ⟨23, _⟩ => ⟨S100000x512, .f32⟩
  | .hbm, ⟨24, _⟩ => ⟨S_, .f32⟩
  | .hbm, ⟨25, _⟩ => ⟨S100000x512, .f32⟩
  | .hbm, ⟨26, _⟩ => ⟨S100000x512, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]

class Facts₀ : Prop where
  slices_S100000x2_S100000x1_0_0 : S100000x2.Slices ![0, 0] S100000x1
  slices_S100000x2_S100000x1_0_1 : S100000x2.Slices ![0, 1] S100000x1
  slices_S512x2_S512x1_0_0 : S512x2.Slices ![0, 0] S512x1
  shapeCasts_S512x1_S512 : S512x1.ShapeCasts S512
  bcast_S512_S1x512_1 : S512.BroadcastsInDim S1x512 (![1] : Fin 1 → Fin S1x512.rank)
  slices_S512x2_S512x1_0_1 : S512x2.Slices ![0, 1] S512x1
  bcast_S100000x1_S100000x512_0_1 : S100000x1.BroadcastsInDim S100000x512 (![0, 1] : Fin 2 → Fin S100000x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)

variable [Facts₀]

class Facts : Prop extends Facts₀ where

variable [Facts]
-- ==== Proof.BoxOverlap.lean ====
/-
  Overlap scores of boxes that share a corner.

  A box is a pair (width, height), placed with one corner at the origin.  For a box (a, b) of the first list and a
  box (w, h) of the second, the two boxes overlap in a rectangle of area  min a w · min b h;  together they cover
  an area  a·b + w·h  less that overlap;  the score of the pair is the quotient of the first area by the second,
  plus one fixed small float.  The table of the scores of 100000 boxes against 512 boxes is stated here as ONE
  function of the two arrays of boxes, entry by entry, on the extended reals: entry (n, j) depends on row n of the
  first array and row j of the second and on nothing else.

  The expression is read as written, on the extended reals: no term is rearranged, cancelled or distributed, so
  it means the same whether or not the entries are finite, and a zero or infinite denominator is whatever the
  quotient of the extended reals makes of it.
-/
import Idealize.ShloMosaic.PureOps.Ideal
import Idealize.ShloMosaic.Lib.ValueIdx

noncomputable section

namespace Cert.BoxOverlap

open Idealize.ShloMosaic Idealize.ShloMosaic.ValueIdx

/-- The score of one pair of boxes, (a, b) against (w, h): overlap over union, plus the small float. -/
def score (a b w h : EReal) : EReal :=
  Ideal.div (min a w * min b h) (a * b + w * h - min a w * min b h) + Ideal.ofBits .f32 0x24E69595#32

/-- The table of scores: entry (n, j) is the score of box n of `L` against box j of `R`. -/
def table (L : (⟨2, ![100000, 2]⟩ : Shape).Idx → EReal) (R : (⟨2, ![512, 2]⟩ : Shape).Idx → EReal) :
    (⟨2, ![100000, 512]⟩ : Shape).Idx → EReal :=
  fun i => score (L (ix2 (n0 := 100000) (n1 := 2) (i 0) (0 : Fin 2))) (L (ix2 (n0 := 100000) (n1 := 2) (i 0) (1 : Fin 2)))
    (R (ix2 (n0 := 512) (n1 := 2) (i 1) (0 : Fin 2))) (R (ix2 (n0 := 512) (n1 := 2) (i 1) (1 : Fin 2)))

/-- The table at a pair of coordinates. -/
theorem table_apply (L : (⟨2, ![100000, 2]⟩ : Shape).Idx → EReal) (R : (⟨2, ![512, 2]⟩ : Shape).Idx → EReal)
    (n : Fin 100000) (j : Fin 512) :
    table L R (ix2 n j) = score (L (ix2 n (0 : Fin 2))) (L (ix2 n (1 : Fin 2))) (R (ix2 j (0 : Fin 2))) (R (ix2 j (1 : Fin 2))) := rfl

end Cert.BoxOverlap

end
-- ==== Proof.BandWritten.lean ====
/-
  One grid point writes one band of 2000 rows of the table of scores.

  The grid has 50 points.  At point t the kernel is handed rows 2000·t … 2000·t + 1999 of the first array (a
  2000 × 2 block), and, at every point alike, the whole row of the second array's widths and the whole row of its
  heights (each 1 × 512).  From these it leaves a 2000 × 512 block whose entry (r, k) is the score of the block's
  box r against box k of the second array, and that block is written back as rows 2000·t … 2000·t + 1999 of the
  result.  So what point t writes back is that band of the table.

  The two rows are not arguments of the program: before the grid is entered, column 0 and column 1 of the second
  array are cut out as 512 × 1 columns and re-laid, through a flat vector of 512 entries, as 1 × 512 rows.
  Re-laying keeps row-major position, so entry (0, k) of a row is entry (k, 0) or (k, 1) of the second array.
-/
import proofs.«131977_j24704651886790_1_alg».proof.Proof.Gen.KernelIdeal.Value
import proofs.«131977_j24704651886790_1_alg».proof.Proof.BoxOverlap
import Idealize.ShloMosaic.Lib.ValueIdx
import Idealize.ShloMosaic.Lib.StableHlo.Run

noncomputable section

namespace Cert.KernelIdeal.Scores

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.BoxOverlap (score table)

variable (m : (ℓ : Loc nD τ sig) → Buf (Elt Ideal) ℓ)

/-! ## A column of the second array, re-laid as a row -/

/-- Column `q` of a 512 × 2 array, cut out, flattened and re-laid as a row, holds at (0, k) the array's entry (k, q):
    all three layouts put it at row-major position k. -/
theorem relaid_column (x : S512x2.Idx → EReal) (q : Fin 2) (h : S512x2.Slices ![0, q.val] S512x1)
    (u : Fin 1) (k : Fin 512) :
    shapeCast S1x512 (shapeCast S512 (extractStridedSlice S512x1 ![0, q.val] x h) shapeCasts_S512x1_S512)
        shapeCasts_S512_S1x512 (ix2 (n0 := 1) (n1 := 512) u k)
      = x (ix2 (n0 := 512) (n1 := 2) k q) := by
  refine (shapeCast_apply _ _ (ix2 (n0 := 1) (n1 := 512) u k) (ix1 (n := 512) k) ?_).trans ?_
  · rw [Shape.rowMajor_val_one, Shape.rowMajor_val_two]
    show k.val = u.val * 512 + k.val
    omega
  refine (shapeCast_apply _ _ (ix1 (n := 512) k) (ix2 (n0 := 512) (n1 := 1) k (0 : Fin 1)) ?_).trans ?_
  · rw [Shape.rowMajor_val_two, Shape.rowMajor_val_one]
    show k.val * 1 + 0 = k.val
    omega
  exact extractStridedSlice_apply ![0, q.val] x h (ix2 (n0 := 512) (n1 := 1) k (0 : Fin 1)) (ix2 (n0 := 512) (n1 := 2) k q)
    (fun a => match a with
      | ⟨0, _⟩ => by show k.val = 0 + k.val; omega
      | ⟨1, _⟩ => by show q.val = q.val + 0; omega)

/-- The row of widths the grid finds is column 0 of the second array, re-laid. -/
theorem widths_eq (c : Dev nD) : (V m c main_v2 : S1x512.Idx → EReal)
    = shapeCast S1x512 (shapeCast S512 (extractStridedSlice S512x1 ![0, 0] (m ((c : Thread nD τ).loc main_arg1)) slices_S512x2_S512x1_0_0)
        shapeCasts_S512x1_S512) shapeCasts_S512_S1x512 := by
  dsimp only [Gen.V, Gen.hostOps0]; after_results; rfl

/-- The row of heights the grid finds is column 1 of the second array, re-laid. -/
theorem heights_eq (c : Dev nD) : (V m c main_v5 : S1x512.Idx → EReal)
    = shapeCast S1x512 (shapeCast S512 (extractStridedSlice S512x1 ![0, 1] (m ((c : Thread nD τ).loc main_arg1)) slices_S512x2_S512x1_0_1)
        shapeCasts_S512x1_S512) shapeCasts_S512_S1x512 := by
  dsimp only [Gen.V, Gen.hostOps0]; after_results; rfl

/-- Entry (0, k) of the row of widths is the width of box k of the second array. -/
theorem widths_apply (c : Dev nD) (u : Fin 1) (k : Fin 512) :
    V m c main_v2 (ix2 (n0 := 1) (n1 := 512) u k) = m ((c : Thread nD τ).loc main_arg1) (ix2 (n0 := 512) (n1 := 2) k (0 : Fin 2)) := by
  rw [widths_eq]
  exact relaid_column _ (0 : Fin 2) slices_S512x2_S512x1_0_0 u k

/-- Entry (0, k) of the row of heights is the height of box k of the second array. -/
theorem heights_apply (c : Dev nD) (u : Fin 1) (k : Fin 512) :
    V m c main_v5 (ix2 (n0 := 1) (n1 := 512) u k) = m ((c : Thread nD τ).loc main_arg1) (ix2 (n0 := 512) (n1 := 2) k (1 : Fin 2)) := by
  rw [heights_eq]
  exact relaid_column _ (1 : Fin 2) slices_S512x2_S512x1_0_1 u k

/-! ## The block the body leaves, from its three inputs as plain arrays -/

theorem zero_offsets : (![0, 0] : Fin 2 → Nat) = fun _ => 0 := funext fun a => by fin_cases a <;> rfl

/-- Entry (r, k) of the block the body leaves is the score of box r of the block of the first array against the
    pair (width k, height k) of the two rows. -/
theorem block_entry (P0 : Vec Ideal S2000x2 .f32) (P1 : Vec Ideal S1x512 .f32) (P2 : Vec Ideal S1x512 .f32)
    (r : Fin 2000) (k : Fin 512) :
    out0_3 P0 P1 P2 (ix2 (n0 := 2000) (n1 := 512) r k)
      = score (P0 (ix2 (n0 := 2000) (n1 := 2) r (0 : Fin 2))) (P0 (ix2 (n0 := 2000) (n1 := 2) r (1 : Fin 2)))
          (P1 (ix2 (n0 := 1) (n1 := 512) (0 : Fin 1) k)) (P2 (ix2 (n0 := 1) (n1 := 512) (0 : Fin 1) k)) := by
  unfold out0_3
  rw [Value.canon3_eq]
  simp only [View.ld_unit_zero (S := S2000x2) zero_offsets, View.ld_unit_zero (S := S1x512) zero_offsets]
  -- the twelve places the block's entry (r, k) is read from: a box's width and height in row r of the first
  -- block, and entry k of the row of widths or of heights
  have p0 : Value.ix3_0 (ix2 (n0 := 2000) (n1 := 512) r k) = ix2 (n0 := 2000) (n1 := 2) r (0 : Fin 2) :=
    funext fun a => Fin.ext (by match a with | ⟨0, _⟩ => rfl | ⟨1, _⟩ => rfl)
  have p1 : Value.ix3_1 (ix2 (n0 := 2000) (n1 := 512) r k) = ix2 (n0 := 1) (n1 := 512) (0 : Fin 1) k :=
    funext fun a => Fin.ext (by match a with | ⟨0, _⟩ => rfl | ⟨1, _⟩ => rfl)
  have p2 : Value.ix3_2 (ix2 (n0 := 2000) (n1 := 512) r k) = ix2 (n0 := 2000) (n1 := 2) r (1 : Fin 2) :=
    funext fun a => Fin.ext (by match a with | ⟨0, _⟩ => rfl | ⟨1, _⟩ => rfl)
  have p3 : Value.ix3_3 (ix2 (n0 := 2000) (n1 := 512) r k) = ix2 (n0 := 1) (n1 := 512) (0 : Fin 1) k :=
    funext fun a => Fin.ext (by match a with | ⟨0, _⟩ => rfl | ⟨1, _⟩ => rfl)
  have p4 : Value.ix3_4 (ix2 (n0 := 2000) (n1 := 512) r k) = ix2 (n0 := 2000) (n1 := 2) r (0 : Fin 2) :=
    funext fun a => Fin.ext (by match a with | ⟨0, _⟩ => rfl | ⟨1, _⟩ => rfl)
  have p5 : Value.ix3_5 (ix2 (n0 := 2000) (n1 := 512) r k) = ix2 (n0 := 2000) (n1 := 2) r (1 : Fin 2) :=
    funext fun a => Fin.ext (by match a with | ⟨0, _⟩ => rfl | ⟨1, _⟩ => rfl)
  have p6 : Value.ix3_6 (ix2 (n0 := 2000) (n1 := 512) r k) = ix2 (n0 := 1) (n1 := 512) (0 : Fin 1) k :=
    funext fun a => Fin.ext (by match a with | ⟨0, _⟩ => rfl | ⟨1, _⟩ => rfl)
  have p7 : Value.ix3_7 (ix2 (n0 := 2000) (n1 := 512) r k) = ix2 (n0 := 1) (n1 := 512) (0 : Fin 1) k :=
    funext fun a => Fin.ext (by match a with | ⟨0, _⟩ => rfl | ⟨1, _⟩ => rfl)
  have p8 : Value.ix3_8 (ix2 (n0 := 2000) (n1 := 512) r k) = ix2 (n0 := 2000) (n1 := 2) r (0 : Fin 2) :=
    funext fun a => Fin.ext (by match a with | ⟨0, _⟩ => rfl | ⟨1, _⟩ => rfl)
  have p9 : Value.ix3_9 (ix2 (n0 := 2000) (n1 := 512) r k) = ix2 (n0 := 1) (n1 := 512) (0 : Fin 1) k :=
    funext fun a => Fin.ext (by match a with | ⟨0, _⟩ => rfl | ⟨1, _⟩ => rfl)
  have p10 : Value.ix3_10 (ix2 (n0 := 2000) (n1 := 512) r k) = ix2 (n0 := 2000) (n1 := 2) r (1 : Fin 2) :=
    funext fun a => Fin.ext (by match a with | ⟨0, _⟩ => rfl | ⟨1, _⟩ => rfl)
  have p11 : Value.ix3_11 (ix2 (n0 := 2000) (n1 := 512) r k) = ix2 (n0 := 1) (n1 := 512) (0 : Fin 1) k :=
    funext fun a => Fin.ext (by match a with | ⟨0, _⟩ => rfl | ⟨1, _⟩ => rfl)
  show Value.E3 P0 P1 P2 (ix2 (n0 := 2000) (n1 := 512) r k) = _
  dsimp only [Value.E3]
  rw [p0, p1, p2, p3, p4, p5, p6, p7, p8, p9, p10, p11]
  rfl

/-! ## The blocks the body is handed at point `t` -/

/-- The printed block positions, decided over the 50 points: along the rows the block of the first array sits where
    the block of the result sits; along the columns every block is at position 0, and the two rows never move. -/
theorem block_positions : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Entry (r, q) of the first array's block at point `t` is the first array's entry in column q of the row that
    entry (r, k) of the result's block lands in. -/
theorem first_block_apply (c : Dev nD) (t : Fin cfg0.N) (r : Fin 2000) (k : Fin 512) (q : Fin 2) :
    iblk m c 0 t (ix2 (n0 := 2000) (n1 := 2) r q)
      = m ((c : Thread nD τ).loc main_arg0) (ix2 (n0 := 100000) (n1 := 2) ((((cfg0.win 3).blk t).view.emb (ix2 (n0 := 2000) (n1 := 512) r k)) 0) q) := by
  obtain ⟨f0, f1, -⟩ := block_positions t
  show V m c main_arg0 (((cfg0.win 0).blk t).view.emb (ix2 (n0 := 2000) (n1 := 2) r q)) = _
  rw [V_main_arg0]
  refine congrArg (m ((c : Thread nD τ).loc main_arg0)) ?_
  funext a; apply Fin.ext
  match a with
  | ⟨0, _⟩ => show win0_0.index t (0 : Fin 2) * 2000 + 1 * r.val = win0_3.index t (0 : Fin 2) * 2000 + 1 * r.val; omega
  | ⟨1, _⟩ => show win0_0.index t (1 : Fin 2) * 2 + 1 * q.val = q.val; omega

/-- Entry (0, k) of the block of widths at point `t` is the width of the box of the second array whose number is the
    column that entry (r, k) of the result's block lands in. -/
theorem widths_block_apply (c : Dev nD) (t : Fin cfg0.N) (r : Fin 2000) (k : Fin 512) :
    iblk m c 1 t (ix2 (n0 := 1) (n1 := 512) (0 : Fin 1) k)
      = m ((c : Thread nD τ).loc main_arg1) (ix2 (n0 := 512) (n1 := 2) ((((cfg0.win 3).blk t).view.emb (ix2 (n0 := 2000) (n1 := 512) r k)) 1) (0 : Fin 2)) := by
  obtain ⟨-, -, f2, f3, -, -, f6⟩ := block_positions t
  have e : ((cfg0.win 1).blk t).view.emb (ix2 (n0 := 1) (n1 := 512) (0 : Fin 1) k)
      = ix2 (n0 := 1) (n1 := 512) (0 : Fin 1) ((((cfg0.win 3).blk t).view.emb (ix2 (n0 := 2000) (n1 := 512) r k)) 1) := by
    funext a; apply Fin.ext
    match a with
    | ⟨0, _⟩ => show win0_1.index t (0 : Fin 2) * 1 + 1 * 0 = 0; omega
    | ⟨1, _⟩ => show win0_1.index t (1 : Fin 2) * 512 + 1 * k.val = win0_3.index t (1 : Fin 2) * 512 + 1 * k.val; omega
  show V m c main_v2 (((cfg0.win 1).blk t).view.emb (ix2 (n0 := 1) (n1 := 512) (0 : Fin 1) k)) = _
  exact (congrArg (V m c main_v2) e).trans (widths_apply m c (0 : Fin 1) _)

/-- Likewise for the block of heights. -/
theorem heights_block_apply (c : Dev nD) (t : Fin cfg0.N) (r : Fin 2000) (k : Fin 512) :
    iblk m c 2 t (ix2 (n0 := 1) (n1 := 512) (0 : Fin 1) k)
      = m ((c : Thread nD τ).loc main_arg1) (ix2 (n0 := 512) (n1 := 2) ((((cfg0.win 3).blk t).view.emb (ix2 (n0 := 2000) (n1 := 512) r k)) 1) (1 : Fin 2)) := by
  obtain ⟨-, -, -, -, f4, f5, f6⟩ := block_positions t
  have e : ((cfg0.win 2).blk t).view.emb (ix2 (n0 := 1) (n1 := 512) (0 : Fin 1) k)
      = ix2 (n0 := 1) (n1 := 512) (0 : Fin 1) ((((cfg0.win 3).blk t).view.emb (ix2 (n0 := 2000) (n1 := 512) r k)) 1) := by
    funext a; apply Fin.ext
    match a with
    | ⟨0, _⟩ => show win0_2.index t (0 : Fin 2) * 1 + 1 * 0 = 0; omega
    | ⟨1, _⟩ => show win0_2.index t (1 : Fin 2) * 512 + 1 * k.val = win0_3.index t (1 : Fin 2) * 512 + 1 * k.val; omega
  show V m c main_v5 (((cfg0.win 2).blk t).view.emb (ix2 (n0 := 1) (n1 := 512) (0 : Fin 1) k)) = _
  exact (congrArg (V m c main_v5) e).trans (heights_apply m c (0 : Fin 1) _)

/-! ## What point `t` writes back -/

/-- What point `t` writes back to the result is the table of scores of the two argument arrays, read through the
    result's block at `t`: rows 2000·t … 2000·t + 1999 of the table. -/
theorem band_written (c : Dev nD) (t : Fin cfg0.N) :
    (dats m 0 c).flushed 3 t = ((cfg0.win 3).blk t).view.read (Elt Ideal)
      (table (m ((c : Thread nD τ).loc main_arg0)) (m ((c : Thread nD τ).loc main_arg1))) := by
  rw [Value.flushed3]
  funext y
  obtain ⟨r, k, rfl⟩ : ∃ (r : Fin 2000) (k : Fin 512), y = ix2 (n0 := 2000) (n1 := 512) r k := ⟨y 0, y 1, eq_ix2 y⟩
  show out0_3 (iblk m c 0 t) (iblk m c 1 t) (iblk m c 2 t) (ix2 (n0 := 2000) (n1 := 512) r k)
    = table (m ((c : Thread nD τ).loc main_arg0)) (m ((c : Thread nD τ).loc main_arg1)) (((cfg0.win 3).blk t).view.emb (ix2 (n0 := 2000) (n1 := 512) r k))
  refine (block_entry (iblk m c 0 t) (iblk m c 1 t) (iblk m c 2 t) r k).trans ?_
  rw [first_block_apply m c t r k (0 : Fin 2), first_block_apply m c t r k (1 : Fin 2),
    widths_block_apply m c t r k, heights_block_apply m c t r k]
  rfl

end Cert.KernelIdeal.Scores

end
-- ==== Proof.BandsCover.lean ====
/-
  The bands tile the table.

  The result's block at grid point t is rows 2000·t … 2000·t + 1999 and all 512 columns.  There are 50 points and
  100000 = 50 · 2000 rows, so row n lies in the block of point n / 2000 and in no other: every entry of the result
  is written back by some point.
-/
import proofs.«131977_j24704651886790_1_alg».proof.Proof.Gen.KernelIdeal.Value

noncomputable section

namespace Cert.KernelIdeal.Scores

open Cert.KernelIdeal Cert.KernelIdeal.Gen Idealize.ShloMosaic Idealize.ShloMosaic.TcCoe Idealize.SL.Sem

/-- Every one of the 50 row positions is some point's. -/
theorem band_of : ∀ q : Fin 50, ∃ t : Fin cfg0.N, win0_3.index t = ![q.val, 0] :=
  (by decide +kernel : ∀ q : Fin 50, ∃ t : Fin grid0.N, win0_3.index t = ![q.val, 0])

/-- An entry of the result is in point `t`'s block when each of its coordinates is in the block's range. -/
theorem mem_band (t : Fin cfg0.N) (i : S100000x512.Idx) :
    i ∈ ((cfg0.win 3).blk t).view.set ↔ ∀ a : Fin 2, win0_3.index t a * S2000x512.size a ≤ (i a).val
      ∧ (i a).val < win0_3.index t a * S2000x512.size a + S2000x512.size a := by
  show i ∈ ((View.whole main_v6).slice (win0_3.rect t)).set ↔ _
  rw [View.set_slice_whole, Rect.mem_set_unit]
  exact Iff.rfl

/-- Every entry of the result is in the block of a point that writes back: the point of row `i 0 / 2000`. -/
theorem bands_cover (i : S100000x512.Idx) :
    ∃ t : Fin cfg0.N, (cfg0.win 3).flush t = true ∧ i ∈ ((cfg0.win 3).blk t).view.set := by
  have hi0 : (i 0).val < 100000 := (i 0).isLt
  have hi1 : (i 1).val < 512 := (i 1).isLt
  obtain ⟨t, ht⟩ := band_of ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_band]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 512 ≤ (i 1).val ∧ (i 1).val < win0_3.index t (1 : Fin 2) * 512 + 512
    omega

end Cert.KernelIdeal.Scores

end
-- ==== Proof.KernelScores.lean ====
/-
  The kernel's program leaves the table of scores in its result.

  Each of the 50 grid points writes back one band of 2000 rows of the table, and the bands tile the result, so
  after the last point the result holds the whole table; the two argument arrays are only read.
-/
import proofs.«131977_j24704651886790_1_alg».proof.Proof.BandWritten
import proofs.«131977_j24704651886790_1_alg».proof.Proof.BandsCover

noncomputable section

namespace Cert.KernelIdeal.Scores

open Cert.KernelIdeal Cert.KernelIdeal.Gen Idealize.ShloMosaic Idealize.ShloMosaic.TcCoe Idealize.SL.Sem
open Idealize.ShloMosaic.Pipeline (Dat)
open Cert.BoxOverlap (table)

variable (m : (ℓ : Loc nD τ sig) → Buf (Elt Ideal) ℓ) (ρ : Dev nD → PrngReg)

/-- After the last grid point the result array is the table of scores of the two argument arrays: every entry was
    written back by the point whose band holds it, as that entry of the table. -/
theorem result_eq (c : Dev nD) :
    (dats m 0 c).arrAt 3 cfg0.N
      = table (m ((c : Thread nD τ).loc main_arg0)) (m ((c : Thread nD τ).loc main_arg1)) :=
  (dats m 0 c).arrAt_eq_of_cover 3 _ (fun t _ => band_written m c t) bands_cover

/-- Every weakly fair execution of the kernel's program terminates, without a fault, with the table of scores of its
    two argument arrays in its result and the arguments unchanged. -/
theorem run : θ_run defs (onTc (τ := τ) (main (F := Ideal))) ⟨m, fun _ => 0, ρ⟩ fun r => ∀ c : Dev nD,
      r.2.mem ((c : Thread nD τ).loc main_v6)
        = table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩) (Value.run_blocks m ρ)

end Cert.KernelIdeal.Scores

end
-- ==== Proof.RefScores.lean ====
/-
  The host program computes the table of scores.

  Its result is built stage by stage: columns 0 and 1 of each array are cut out, the second array's columns are
  re-laid as rows, everything is broadcast to 100000 × 512, and the score is formed pointwise.  Reading entry
  (n, j) back through those stages, each broadcast drops the coordinate it repeats along and each cut adds the
  column it starts at, so the four numbers the entry is made of are  L (n, 0), L (n, 1), R (j, 0), R (j, 1):
  box n of the first array and box j of the second.  The products  L(n,0)·L(n,1)  and  R(j,0)·R(j,1)  are formed
  before their broadcasts, which changes where they are read, not what they are.
-/
import proofs.«131977_j24704651886790_1_alg».proof.Proof.Gen.ReferenceIdeal.Read
import proofs.«131977_j24704651886790_1_alg».proof.Proof.BoxOverlap

noncomputable section

namespace Cert.ReferenceIdeal.Scores

open Cert.ReferenceIdeal Cert.ReferenceIdeal.Read Idealize.ShloMosaic Idealize.ShloMosaic.ValueIdx

/-! ## Where entry `i` of the result reads the two arrays -/

/-- Through the broadcast along the columns and the cut of column 0: row `i 0`, column 0 of the first array. -/
theorem first_w (i : S100000x512.Idx) : idx_main_v0 (idx_main_v8 i) = ix2 (n0 := 100000) (n1 := 2) (i 0) (0 : Fin 2) :=
  funext fun a => Fin.ext (by match a with | ⟨0, _⟩ => rfl | ⟨1, _⟩ => rfl)

/-- Through the broadcast along the columns and the cut of column 1: row `i 0`, column 1 of the first array. -/
theorem first_h (i : S100000x512.Idx) : idx_main_v1 (idx_main_v11 i) = ix2 (n0 := 100000) (n1 := 2) (i 0) (1 : Fin 2) :=
  funext fun a => Fin.ext (by match a with | ⟨0, _⟩ => rfl | ⟨1, _⟩ => rfl)

/-- The same two reads under the product of a box's sides, formed before its broadcast. -/
theorem first_w' (i : S100000x512.Idx) : idx_main_v0 (idx_main_v17 i) = ix2 (n0 := 100000) (n1 := 2) (i 0) (0 : Fin 2) :=
  funext fun a => Fin.ext (by match a with | ⟨0, _⟩ => rfl | ⟨1, _⟩ => rfl)

theorem first_h' (i : S100000x512.Idx) : idx_main_v1 (idx_main_v17 i) = ix2 (n0 := 100000) (n1 := 2) (i 0) (1 : Fin 2) :=
  funext fun a => Fin.ext (by match a with | ⟨0, _⟩ => rfl | ⟨1, _⟩ => rfl)

/-- Through the broadcast along the rows, the column re-laid as a row, and the cut of column 0: row `i 1`,
    column 0 of the second array. -/
theorem second_w (i : S100000x512.Idx) : idx_main_v2 (idx_main_v3 (idx_main_v4 (idx_main_v9 i))) = ix2 (n0 := 512) (n1 := 2) (i 1) (0 : Fin 2) :=
  funext fun a => Fin.ext (by match a with | ⟨0, _⟩ => exact Nat.div_one _ | ⟨1, _⟩ => rfl)

/-- Likewise for column 1 of the second array. -/
theorem second_h (i : S100000x512.Idx) : idx_main_v5 (idx_main_v6 (idx_main_v7 (idx_main_v12 i))) = ix2 (n0 := 512) (n1 := 2) (i 1) (1 : Fin 2) :=
  funext fun a => Fin.ext (by match a with | ⟨0, _⟩ => exact Nat.div_one _ | ⟨1, _⟩ => rfl)

theorem second_w' (i : S100000x512.Idx) : idx_main_v2 (idx_main_v3 (idx_main_v4 (idx_main_v18 i))) = ix2 (n0 := 512) (n1 := 2) (i 1) (0 : Fin 2) :=
  funext fun a => Fin.ext (by match a with | ⟨0, _⟩ => exact Nat.div_one _ | ⟨1, _⟩ => rfl)

theorem second_h' (i : S100000x512.Idx) : idx_main_v5 (idx_main_v6 (idx_main_v7 (idx_main_v18 i))) = ix2 (n0 := 512) (n1 := 2) (i 1) (1 : Fin 2) :=
  funext fun a => Fin.ext (by match a with | ⟨0, _⟩ => exact Nat.div_one _ | ⟨1, _⟩ => rfl)

/-! ## The result is the table -/

/-- The host program's last stage, entry by entry, is the score of box `i 0` of the first array against box `i 1`
    of the second. -/
theorem result_eq (x0 : (⟨S100000x2, .f32⟩ : BufTy).Contents (Elt Ideal)) (x1 : (⟨S512x2, .f32⟩ : BufTy).Contents (Elt Ideal)) :
    val_main_v23 (F := Ideal) x0 x1 = Cert.BoxOverlap.table x0 x1 := by
  funext i
  rw [val_main_v23_apply, val_main_v21_apply, val_main_v20_apply, val_main_v19_apply, val_main_v14_apply,
    val_main_v10_apply, val_main_v13_apply,
    val_main_v8_apply, val_main_v0_apply, val_main_v11_apply, val_main_v1_apply,
    val_main_v9_apply, val_main_v4_apply, val_main_v3_apply, val_main_v2_apply,
    val_main_v12_apply, val_main_v7_apply, val_main_v6_apply, val_main_v5_apply,
    val_main_v17_apply, val_main_v15_apply, val_main_v0_apply, val_main_v1_apply,
    val_main_v18_apply, val_main_v16_apply, val_main_v4_apply, val_main_v3_apply, val_main_v2_apply,
    val_main_v7_apply, val_main_v6_apply, val_main_v5_apply,
    val_main_v22_apply, val_main_cst_apply]
  simp only [first_w, first_h, first_w', first_h', second_w, second_h, second_w', second_h']
  rfl

end Cert.ReferenceIdeal.Scores

end
-- ==== Proof.lean ====
/-
  The kernel and the reference compute one table.

  Both programs take 100000 boxes and 512 boxes, each a pair (width, height) placed with a corner at the origin,
  and return the 100000 × 512 table whose entry (n, j) is the area of the overlap of box n and box j divided by
  the area the two cover together, plus one fixed small float (Proof/BoxOverlap.lean).  The reference forms the
  table in one piece from broadcasts of the arrays' columns (Proof/RefScores.lean).  The kernel walks a grid of 50
  points; at point t it reads rows 2000·t … 2000·t + 1999 of the first array and the second array's two columns
  re-laid as rows, and writes back rows 2000·t … 2000·t + 1999 of the table (Proof/BandWritten.lean); the 50 bands
  tile the result (Proof/BandsCover.lean), so it ends holding the table (Proof/KernelScores.lean).  Entry by entry
  the two spell the same expression in the same order, so they agree on the extended reals whatever the entries
  are, finite or not.

  Each program also runs to the end without a fault and leaves its arguments as they were; for the two kernel
  programs that is the generated frame, for the reference it is its run with the result dropped.  The idealized
  kernel is the kernel's own text read over the extended reals: no operation was rewritten, so there is nothing to
  preserve.
-/
import proofs.«131977_j24704651886790_1_alg».proof.Defs
import proofs.«131977_j24704651886790_1_alg».proof.Proof.Gen.Kernel
import proofs.«131977_j24704651886790_1_alg».proof.Proof.Gen.Kernel.Frame
import proofs.«131977_j24704651886790_1_alg».proof.Proof.Gen.KernelIdeal
import proofs.«131977_j24704651886790_1_alg».proof.Proof.Gen.KernelIdeal.Frame
import proofs.«131977_j24704651886790_1_alg».proof.Proof.Gen.KernelIdeal.Value
import proofs.«131977_j24704651886790_1_alg».proof.Proof.Gen.ReferenceIdeal
import proofs.«131977_j24704651886790_1_alg».proof.Proof.Gen.ReferenceIdeal.Run
import proofs.«131977_j24704651886790_1_alg».proof.Proof.Gen.ReferenceIdeal.Read
import proofs.«131977_j24704651886790_1_alg».proof.Proof.Gen.Pre_finite_inputs
import proofs.«131977_j24704651886790_1_alg».proof.Proof.KernelScores
import proofs.«131977_j24704651886790_1_alg».proof.Proof.RefScores

noncomputable section

namespace Cert.Proof

open Idealize.ShloMosaic Idealize.ShloMosaic.TcCoe Idealize.SL.Sem

/-- The kernel as printed runs to the end and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on the two arrays of boxes, both programs end with the table of scores of those
    arrays in their results. -/
theorem algebraic : Cert.algebraic_KernelIdeal_ReferenceIdeal := by
  intro m ρ m' ρ' _ hagree
  refine ⟨fun c => Cert.BoxOverlap.table (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.Scores.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
